-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSharedArrays.lean ====
/-
  The frame run of a one-region pipelined kernel whose windows may SHARE ARRAYS (one array handed to the kernel
  through several input windows), with an invariant the certificate states point by point over the kernel's
  scratch buffers.

  The launch library's theorem for shared arrays asks how the buffers behind the arrays, each held whole at the
  entry contents, are dealt among the windows (`hsplit`); everything else a frame run needs is the same for every
  such kernel and is stated here once: the ghost state is one copy of the rounds algebra, nothing is owed, the
  unscoped buffers that are no window's array bypass the region and are read back unchanged, and the scoped
  buffers that are no staging buffer enter the invariant before the first point and leave it after the last.
  The kernel may not use the generator register (the no-semaphore launch lets it go).
-/
import Idealize.ShloMosaic.Lib.Pipeline.Frame

noncomputable section

namespace Idealize.ShloMosaic.Pipeline.SharedArrays

open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN for windows that may share arrays. From the layout facts but for the arrays' distinctness
    (`hw`, `hinj`, `hne`, `harr`, `hstage`), the body obligation at every point, nothing owed, @main up to the
    region (`hmain`) with the buffers' contents there (`V`), the deal of the arrays' buffers among the windows
    (`hsplit`), and an invariant that the scoped rest yields before the first point (`hin`) and that yields the
    scoped rest back after the last (`hout`): every weakly fair execution of @main terminates, and every final
    state has every window's array at what the library computes from the proof data (`Dat.arrAt … N`) and every
    other unscoped buffer at its contents at the region's entry. -/
theorem θ_run_frame_track
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => (BI.emp : sProp 𝕄)) (Y := fun _ => (BI.emp : sProp 𝕄))
    (Z := fun c => unscopedRest (Ix := Unit) (Name := ℕ) (U := UR sig nD τ) (Lvl := ℕ) (cfg).spec c (V c))
    (hX := fun c => by
      iintro HU
      isplitr; · iempintro
      iexact HU)
    (hin := fun c => (show iprop((BI.emp : sProp 𝕄) ∗ scopedRest (cfg).spec c) ⊢ scopedRest (cfg).spec c from by
      iintro ⟨-, H⟩; iexact H).trans (hin c))
    (hout := fun c => (hout c).trans (by
      iintro H
      isplitr; · iempintro
      iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline.SharedArrays

end
-- ==== Proof.BitsRuns.lean ====
/-
  The graph-convolution kernel, point by point. The grid has 25 points; at point t the body reads the whole
  feature matrix x (10000×128) and the weight W (128×128), two blocks of 200 rows of the adjacency matrix — rows
  400t … 400t+199 and rows 400t+200 … 400t+399, two windows on ONE array — and writes rows 400t … 400t+399 of the
  result. A scratch buffer of the kernel's own holds the projection x·W: the body stores it at the first point
  and only loads it at the 24 later ones. So the body has two cases, decided by the grid coordinate alone, and
  what it leaves in the result's staging buffer and in the scratch is found, case by case, by running it.
-/
import proofs.«173253_g84851373900264_cont_9to1_m_689_9_alg».proof.Proof.Gen.Kernel.Launch
import proofs.«173253_g84851373900264_cont_9to1_m_689_9_alg».proof.Proof.Gen.Kernel.Skeleton
import proofs.«173253_g84851373900264_cont_9to1_m_689_9_alg».proof.Proof.Gen.Kernel.Points
import proofs.«173253_g84851373900264_cont_9to1_m_689_9_alg».proof.Proof.LibSharedArrays
import Idealize.ShloMosaic.Lib.Pipeline.FrameBody
import Idealize.ShloMosaic.Lib.Tactic

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- Core `c`'s buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's index has not moved), for any proof data whose array is the entry contents and whose body leaves the
    block in place. One statement per input window: x, W, and the two windows on the adjacency matrix. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_lo_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_hi_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition under which the body computes the projection: the grid coordinate is zero (the printed scalar
    chain, substituted). -/
abbrev atFirst (i : grid0.Coords) : Prop := (Scalar.cmpi .ne (Scalar.extui (Scalar.cmpi .eq (BitVec.ofNat 32 (i 0).val) 0#32)) 0#32) = 1#1
/-- It holds at point 0 and at no other — decided over the 25 points. -/
theorem atFirst_iff : ∀ t : Fin cfg0.N, atFirst (grid0.coords t) ↔ t.val = 0 :=
  (by decide +kernel : ∀ t : Fin grid0.N, atFirst (grid0.coords t) ↔ t.val = 0)

/-- No window is idle at any point. -/
theorem live : ∀ (w : Fin cfg0.W) (t : Fin cfg0.N), cfg0.idle w (grid0.coords t) = false := by decide +kernel

/-! ## The staging memrefs and the scratch -/

abbrev ms_x (t : Fin cfg0.N) : Memref sig .tc .vmem S10000x128 .f32 := win0_0.stage (cfg0.slots t 0)
abbrev hs_x (t : Fin cfg0.N) : (ms_x t).IsWhole := hstage0_0 ((cfg0.slots t 0).cast nbuf0_0)
abbrev ms_w (t : Fin cfg0.N) : Memref sig .tc .vmem S128x128 .f32 := win0_1.stage (cfg0.slots t 1)
abbrev hs_w (t : Fin cfg0.N) : (ms_w t).IsWhole := hstage0_1 ((cfg0.slots t 1).cast nbuf0_1)
abbrev ms_lo (t : Fin cfg0.N) : Memref sig .tc .vmem S200x10000 .f32 := win0_2.stage (cfg0.slots t 2)
abbrev hs_lo (t : Fin cfg0.N) : (ms_lo t).IsWhole := hstage0_2 ((cfg0.slots t 2).cast nbuf0_2)
abbrev ms_hi (t : Fin cfg0.N) : Memref sig .tc .vmem S200x10000 .f32 := win0_3.stage (cfg0.slots t 3)
abbrev hs_hi (t : Fin cfg0.N) : (ms_hi t).IsWhole := hstage0_3 ((cfg0.slots t 3).cast nbuf0_3)
abbrev ms_out (t : Fin cfg0.N) : Memref sig .tc .vmem S400x128 .f32 := win0_4.stage (cfg0.slots t 4)
abbrev hs_out (t : Fin cfg0.N) : (ms_out t).IsWhole := hstage0_4 ((cfg0.slots t 4).cast nbuf0_4)
/-- The scratch that holds the projection, a whole scoped buffer of the kernel's own. -/
abbrev scM : Memref sig .tc .vmem S10000x128 .f32 := Memref.whole cc0_scratch0
/-- One staging buffer of the result window and the scratch, as views through which contents are stated. -/
abbrev VO : View sig .tc .vmem S400x128 .f32 := (Memref.whole cc0_stg4_0 : Memref sig .tc .vmem S400x128 .f32).view
abbrev VS : View sig .tc .vmem S10000x128 .f32 := scM.view

/-- The scoped buffers that are no staging buffer are the scratch, owned whole at some contents. -/
theorem rest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The body on any whole memrefs, case by case -/

set_option maxHeartbeats 1000000 in
/-- AT THE FIRST POINT. On whole memrefs — the four inputs' at their contents, the result's and the scratch at
    anything — the body runs to the continuation holding the inputs' as they were, the result's buffer with the
    pieces `L` written and the scratch with the pieces `LS` written; the pieces are what the run finds. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) :
    Σ' (L : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 1000000 in
/-- AT A LATER POINT. The same, the scratch at the contents `xs` the points before left and handed back as it
    was: the body only loads it. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬atFirst i)
    (x0 : Vec F S10000x128 .f32) (x1 : Vec F S128x128 .f32) (x2 : Vec F S200x10000 .f32) (x3 : Vec F S200x10000 .f32) (xs : Vec F S10000x128 .f32) :
    { L : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Gcn

end
-- ==== Proof.BitsFrame.lean ====
/-
  The frame of the graph-convolution kernel: it runs to the end at every grid point, faults nowhere, leaves its
  three argument arrays unchanged, and its result array ends at what the write-backs of the 25 points make of it.

  What is carried from point to point is the projection x·W in the kernel's scratch: anything before the first
  point, the first point's store afterwards, unchanged by the 24 later points. The adjacency matrix is handed to
  the kernel through two windows; each holds half of the array's share (both only read it), the halves dealt at
  the launch and, the array never being written, read back as one at the end.
-/
import proofs.«173253_g84851373900264_cont_9to1_m_689_9_alg».proof.Proof.BitsRuns
import Idealize.ShloMosaic.Lib.Ring

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The result's staging buffer after the first point: the run's pieces, overlaid. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) : Vec F S400x128 .f32 :=
  View.canon (runFirst c i arg1 harg1 arg2 harg2 arg3 harg3 arg4 harg4 arg5 harg5 arg6 harg6 hc x0 x1 x2 x3).1

/-- The scratch after the first point. -/
def scrFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) : Vec F S10000x128 .f32 :=
  View.canon (runFirst c i arg1 harg1 arg2 harg2 arg3 harg3 arg4 harg4 arg5 harg5 arg6 harg6 hc x0 x1 x2 x3).2.1

/-- The result's staging buffer after a later point, the scratch at `xs`. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬atFirst i)
    (x0 : Vec F S10000x128 .f32) (x1 : Vec F S128x128 .f32) (x2 : Vec F S200x10000 .f32) (x3 : Vec F S200x10000 .f32) (xs : Vec F S10000x128 .f32) : Vec F S400x128 .f32 :=
  View.canon (runLater c i arg1 harg1 arg2 harg2 arg3 harg3 arg4 harg4 arg5 harg5 arg6 harg6 hc x0 x1 x2 x3 xs).1

/-- The two half-block stores tile the result's block; the one store of the projection tiles the scratch. -/
theorem cover_outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x128.size (by sl_kernel_rfl) y
theorem cover_scrFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y
theorem cover_outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬atFirst i)
    (x0 : Vec F S10000x128 .f32) (x1 : Vec F S128x128 .f32) (x2 : Vec F S200x10000 .f32) (x3 : Vec F S200x10000 .f32) (xs : Vec F S10000x128 .f32) (y : S400x128.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S200x128.size (by sl_kernel_rfl) y

/-! ## The projection the scratch carries, and the result's buffer point by point -/

/-- The first grid point. -/
def t0 : Fin cfg0.N := ⟨0, by rw [show cfg0.N = 25 from N_0]; decide⟩

/-- What the scratch holds after the first point and ever after: the first point's store, of the blocks there. -/
def proj (c : Dev nD) : Vec F S10000x128 .f32 :=
  scrFirst c (grid0.coords t0) (ms_x t0) (hs_x t0) (ms_w t0) (hs_w t0) (ms_lo t0) (hs_lo t0) (ms_hi t0) (hs_hi t0) (ms_out t0) (hs_out t0) scM (Memref.isWhole_whole _)
    ((atFirst_iff t0).mpr rfl) (iblk m c 0 t0) (iblk m c 1 t0) (iblk m c 2 t0) (iblk m c 3 t0)

/-- What the result's staging buffer holds after the body at point `t`: the case the point is in, run on the
    point's blocks, a later point over the projection. -/
def outAt (c : Dev nD) (t : Fin cfg0.N) : Vec F S400x128 .f32 :=
  if h : t.val = 0 then
    outFirst c (grid0.coords t) (ms_x t) (hs_x t) (ms_w t) (hs_w t) (ms_lo t) (hs_lo t) (ms_hi t) (hs_hi t) (ms_out t) (hs_out t) scM (Memref.isWhole_whole _)
      ((atFirst_iff t).mpr h) (iblk m c 0 t) (iblk m c 1 t) (iblk m c 2 t) (iblk m c 3 t)
  else
    outLater c (grid0.coords t) (ms_x t) (hs_x t) (ms_w t) (hs_w t) (ms_lo t) (hs_lo t) (ms_hi t) (hs_hi t) (ms_out t) (hs_out t) scM (Memref.isWhole_whole _)
      (fun h' => h ((atFirst_iff t).mp h')) (iblk m c 0 t) (iblk m c 1 t) (iblk m c 2 t) (iblk m c 3 t) (proj m c)

theorem outAt_first (c : Dev nD) (t : Fin cfg0.N) (h : t.val = 0) :
    outAt m c t = outFirst c (grid0.coords t) (ms_x t) (hs_x t) (ms_w t) (hs_w t) (ms_lo t) (hs_lo t) (ms_hi t) (hs_hi t) (ms_out t) (hs_out t) scM (Memref.isWhole_whole _)
      ((atFirst_iff t).mpr h) (iblk m c 0 t) (iblk m c 1 t) (iblk m c 2 t) (iblk m c 3 t) := dif_pos h
theorem outAt_later (c : Dev nD) (t : Fin cfg0.N) (h : ¬t.val = 0) :
    outAt m c t = outLater c (grid0.coords t) (ms_x t) (hs_x t) (ms_w t) (hs_w t) (ms_lo t) (hs_lo t) (ms_hi t) (hs_hi t) (ms_out t) (hs_out t) scM (Memref.isWhole_whole _)
      (fun h' => h ((atFirst_iff t).mp h')) (iblk m c 0 t) (iblk m c 1 t) (iblk m c 2 t) (iblk m c 3 t) (proj m c) := dif_neg h

/-- The region invariant before position `n`: before the first point the scratch at anything; afterwards at the
    projection. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (proj m c)

theorem PhiS_zero (c : Dev nD) (n : ℕ) (hz : n = 0) :
    PhiS m c n = Pipeline.scopedRest (Ix := Unit) (Name := ℕ) (U := UR sig nD τ) (Lvl := ℕ) (Val := Elt F) spec0 c := by subst hz; rfl
theorem PhiS_pos (c : Dev nD) (n : ℕ) (hz : n ≠ 0) : PhiS m c n = owns (c : Thread nD τ) scM fullShare (proj m c) := by
  cases n with
  | zero => exact absurd rfl hz
  | succ n => rfl

/-! ## The proof data -/

/-- The proof data on core `c`: the arrays as launched; after the body each input's buffer at its block and the
    result's at `outAt`; the invariant `PhiS`; nothing owed; the adjacency array's share halved between its two
    windows, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_lo (c : Dev nD) (t : Fin cfg0.N) : (dats m 0 c).after 2 t = iblk m c 2 t := by dsimp only [dats]
theorem after_hi (c : Dev nD) (t : Fin cfg0.N) : (dats m 0 c).after 3 t = iblk m c 3 t := by dsimp only [dats]
theorem after_out (c : Dev nD) (t : Fin cfg0.N) : (dats m 0 c).after 4 t = outAt m c t := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d
theorem before_lo (c : Dev nD) (t : Fin cfg0.N) (d) : (dats m 0 c).before 2 t d = iblk m c 2 t :=
  before_lo_of m (dats m 0 c) (A_eq m c 2) (after_lo m c) t d
theorem before_hi (c : Dev nD) (t : Fin cfg0.N) (d) : (dats m 0 c).before 3 t d = iblk m c 3 t :=
  before_hi_of m (dats m 0 c) (A_eq m c 3) (after_hi m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_x t) fullShare ((dats m 0 c).before 0 t d))
    ∗ (∃ d, owns (c : Thread nD τ) (ms_w t) fullShare ((dats m 0 c).before 1 t d))
    ∗ (∃ d, owns (c : Thread nD τ) (ms_lo t) fullShare ((dats m 0 c).before 2 t d))
    ∗ (∃ d, owns (c : Thread nD τ) (ms_hi t) fullShare ((dats m 0 c).before 3 t d))
    ∗ (∃ d, owns (c : Thread nD τ) (ms_out t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

set_option maxHeartbeats 4000000 in
/-- The body at any point: the inputs' buffers hold their blocks; the point is the first or a later one; the run
    of its case applies, handed the scratch at anything (first) or at the projection (later), and hands it back
    at the projection. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_lo, before_hi]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [leaves_eq m c 0 t, leaves_eq m c 1 t, leaves_eq m c 2 t, leaves_eq m c 3 t, leaves_eq m c 4 t,
    after_x, after_w, after_lo, after_hi, after_out]
  rw [Phi_castSucc m c t]
  by_cases h0 : t.val = 0
  · obtain rfl : t = t0 := Fin.ext h0
    rw [PhiS_zero m c _ h0, rest_eq, outAt_first m c t0 h0]
    unfold outFirst proj scrFirst
    iintro ⟨⟨%ds, HS⟩, Ho, ⟨%d0, H0⟩, ⟨%d1, H1⟩, ⟨%d2, H2⟩, ⟨%d3, H3⟩, ⟨%d4, H4⟩⟩
    iapply ((runFirst c (grid0.coords t0) _ _ _ _ _ _ _ _ _ _ _ _ ((atFirst_iff t0).mpr h0) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, ⟨%e4, H4⟩, ⟨%es, HS⟩⟩
    isplitl [HS]
    · unfold owns; iexists _; isplitr
      swap; · iexact HS
      ipureintro; exact View.read_writes_eq_canon _ _ _ (cover_scrFirst c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_eq_canon _ _ _ (cover_outFirst c _ _ _ _ _ _ _ _ _ _ _ _ _ _ _ _ _ _)
  · rw [PhiS_pos m c _ h0, outAt_later m c t h0]
    unfold outLater
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h' => h0 ((atFirst_iff t).mp h')) (iblk m c 0 t) (iblk m c 1 t) (iblk m c 2 t) (iblk m c 3 t) (proj m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_eq_canon _ _ _ (cover_outLater c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch's hand-overs -/

/-- What the launch hands the region — the scratch at anything — is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl, PhiS_zero m c 0 rfl]

/-- After the last point the invariant gives it back, the projection forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last, show cfg0.N = 25 from N_0]; decide), rest_eq]
  iintro HS
  iexists _; iexact HS

theorem share_x (c : Dev nD) : (dats m 0 c).share 0 = fullShare := rfl
theorem share_w (c : Dev nD) : (dats m 0 c).share 1 = fullShare := rfl
theorem share_lo (c : Dev nD) : (dats m 0 c).share 2 = fullShare.left := rfl
theorem share_hi (c : Dev nD) : (dats m 0 c).share 3 = fullShare.right := rfl
theorem share_out (c : Dev nD) : (dats m 0 c).share 4 = fullShare := rfl

/-- THE DEAL. The four buffers behind the five windows' arrays, each whole at the full share at the launch
    contents, are the windows' arrays at entry: x, W and the result each whole; the adjacency matrix split into its
    two half shares, one for the window on the even blocks of 200 rows, one for the window on the odd ones. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg2, main_arg1, main_v0] (by decide) (by decide), bigSep_W0]
  rw [show (bigSepL [main_arg0, main_arg2, main_arg1, main_v0] fun b => (((c : Thread nD τ).loc b) ↦{fullShare} V m c b : sProp 𝕄))
      = iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_v0) ↦{fullShare} V m c main_v0)) from rfl]
  rw [(arr_whole0 0).set_eq_univ, (arr_whole0 1).set_eq_univ, (arr_whole0 2).set_eq_univ, (arr_whole0 4).set_eq_univ,
    share_x, share_w, share_lo, share_hi, share_out]
  iintro ⟨H0, H2, H1, Hv⟩
  ihave H1' := (pointsTo_share (PosShare.mem_left_op_right fullShare)).1 $$ H1
  icases H1' with ⟨H1a, H1b⟩
  isplitl [H0]; · iexact H0
  isplitl [H2]; · iexact H2
  isplitl [H1a]; · iexact H1a
  isplitl [H1b]; · iexact H1b
  iexact Hv

/-! ## The run and the frame -/

set_option backward.isDefEq.respectTransparency.types false in
/-- For any values, from any memory with zero counters: every weakly fair execution of @main terminates, and
    every final state has every window's array at what the write-backs make of its entry contents. -/
theorem run_main : θ_run defs (onTc (τ := τ) (main (F := F))) (s₀ m ρ) (Pipeline.FramePost cfgs (dats m) 0 (V m)) :=
  Pipeline.SharedArrays.θ_run_frame_track cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- The run with every array named: the result at the proof data's final array, the three arguments unchanged
    (an input window's array is never written). -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 4,
      ((h c).1 0).trans (((dats m 0 c).arrAt_in 0 rfl _).trans (A_eq m c 0)),
      ((h c).1 2).trans (((dats m 0 c).arrAt_in 2 rfl _).trans (A_eq m c 2)),
      ((h c).1 1).trans (((dats m 0 c).arrAt_in 1 rfl _).trans (A_eq m c 1))⟩) (run_main m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Gcn

end
-- ==== Proof.IdealRuns.lean ====
/-
  The graph-convolution kernel, point by point. The grid has 25 points; at point t the body reads the whole
  feature matrix x (10000×128) and the weight W (128×128), two blocks of 200 rows of the adjacency matrix — rows
  400t … 400t+199 and rows 400t+200 … 400t+399, two windows on ONE array — and writes rows 400t … 400t+399 of the
  result. A scratch buffer of the kernel's own holds the projection x·W: the body stores it at the first point
  and only loads it at the 24 later ones. So the body has two cases, decided by the grid coordinate alone, and
  what it leaves in the result's staging buffer and in the scratch is found, case by case, by running it.
-/
import proofs.«173253_g84851373900264_cont_9to1_m_689_9_alg».proof.Proof.Gen.KernelIdeal.Launch
import proofs.«173253_g84851373900264_cont_9to1_m_689_9_alg».proof.Proof.Gen.KernelIdeal.Skeleton
import proofs.«173253_g84851373900264_cont_9to1_m_689_9_alg».proof.Proof.Gen.KernelIdeal.Points
import proofs.«173253_g84851373900264_cont_9to1_m_689_9_alg».proof.Proof.LibSharedArrays
import Idealize.ShloMosaic.Lib.Pipeline.FrameBody
import Idealize.ShloMosaic.Lib.Tactic

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- Core `c`'s buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's index has not moved), for any proof data whose array is the entry contents and whose body leaves the
    block in place. One statement per input window: x, W, and the two windows on the adjacency matrix. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_lo_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_hi_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition under which the body computes the projection: the grid coordinate is zero (the printed scalar
    chain, substituted). -/
abbrev atFirst (i : grid0.Coords) : Prop := (Scalar.cmpi .ne (Scalar.extui (Scalar.cmpi .eq (BitVec.ofNat 32 (i 0).val) 0#32)) 0#32) = 1#1
/-- It holds at point 0 and at no other — decided over the 25 points. -/
theorem atFirst_iff : ∀ t : Fin cfg0.N, atFirst (grid0.coords t) ↔ t.val = 0 :=
  (by decide +kernel : ∀ t : Fin grid0.N, atFirst (grid0.coords t) ↔ t.val = 0)

/-- No window is idle at any point. -/
theorem live : ∀ (w : Fin cfg0.W) (t : Fin cfg0.N), cfg0.idle w (grid0.coords t) = false := by decide +kernel

/-! ## The staging memrefs and the scratch -/

abbrev ms_x (t : Fin cfg0.N) : Memref sig .tc .vmem S10000x128 .f32 := win0_0.stage (cfg0.slots t 0)
abbrev hs_x (t : Fin cfg0.N) : (ms_x t).IsWhole := hstage0_0 ((cfg0.slots t 0).cast nbuf0_0)
abbrev ms_w (t : Fin cfg0.N) : Memref sig .tc .vmem S128x128 .f32 := win0_1.stage (cfg0.slots t 1)
abbrev hs_w (t : Fin cfg0.N) : (ms_w t).IsWhole := hstage0_1 ((cfg0.slots t 1).cast nbuf0_1)
abbrev ms_lo (t : Fin cfg0.N) : Memref sig .tc .vmem S200x10000 .f32 := win0_2.stage (cfg0.slots t 2)
abbrev hs_lo (t : Fin cfg0.N) : (ms_lo t).IsWhole := hstage0_2 ((cfg0.slots t 2).cast nbuf0_2)
abbrev ms_hi (t : Fin cfg0.N) : Memref sig .tc .vmem S200x10000 .f32 := win0_3.stage (cfg0.slots t 3)
abbrev hs_hi (t : Fin cfg0.N) : (ms_hi t).IsWhole := hstage0_3 ((cfg0.slots t 3).cast nbuf0_3)
abbrev ms_out (t : Fin cfg0.N) : Memref sig .tc .vmem S400x128 .f32 := win0_4.stage (cfg0.slots t 4)
abbrev hs_out (t : Fin cfg0.N) : (ms_out t).IsWhole := hstage0_4 ((cfg0.slots t 4).cast nbuf0_4)
/-- The scratch that holds the projection, a whole scoped buffer of the kernel's own. -/
abbrev scM : Memref sig .tc .vmem S10000x128 .f32 := Memref.whole cc0_scratch0
/-- One staging buffer of the result window and the scratch, as views through which contents are stated. -/
abbrev VO : View sig .tc .vmem S400x128 .f32 := (Memref.whole cc0_stg4_0 : Memref sig .tc .vmem S400x128 .f32).view
abbrev VS : View sig .tc .vmem S10000x128 .f32 := scM.view

/-- The scoped buffers that are no staging buffer are the scratch, owned whole at some contents. -/
theorem rest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The body on any whole memrefs, case by case -/

set_option maxHeartbeats 1000000 in
/-- AT THE FIRST POINT. On whole memrefs — the four inputs' at their contents, the result's and the scratch at
    anything — the body runs to the continuation holding the inputs' as they were, the result's buffer with the
    pieces `L` written and the scratch with the pieces `LS` written; the pieces are what the run finds. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) :
    Σ' (L : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 1000000 in
/-- AT A LATER POINT. The same, the scratch at the contents `xs` the points before left and handed back as it
    was: the body only loads it. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬atFirst i)
    (x0 : Vec F S10000x128 .f32) (x1 : Vec F S128x128 .f32) (x2 : Vec F S200x10000 .f32) (x3 : Vec F S200x10000 .f32) (xs : Vec F S10000x128 .f32) :
    { L : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Gcn

end
-- ==== Proof.IdealFrame.lean ====
/-
  The frame of the graph-convolution kernel: it runs to the end at every grid point, faults nowhere, leaves its
  three argument arrays unchanged, and its result array ends at what the write-backs of the 25 points make of it.

  What is carried from point to point is the projection x·W in the kernel's scratch: anything before the first
  point, the first point's store afterwards, unchanged by the 24 later points. The adjacency matrix is handed to
  the kernel through two windows; each holds half of the array's share (both only read it), the halves dealt at
  the launch and, the array never being written, read back as one at the end.
-/
import proofs.«173253_g84851373900264_cont_9to1_m_689_9_alg».proof.Proof.IdealRuns
import Idealize.ShloMosaic.Lib.Ring

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The result's staging buffer after the first point: the run's pieces, overlaid. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) : Vec F S400x128 .f32 :=
  View.canon (runFirst c i arg1 harg1 arg2 harg2 arg3 harg3 arg4 harg4 arg5 harg5 arg6 harg6 hc x0 x1 x2 x3).1

/-- The scratch after the first point. -/
def scrFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) : Vec F S10000x128 .f32 :=
  View.canon (runFirst c i arg1 harg1 arg2 harg2 arg3 harg3 arg4 harg4 arg5 harg5 arg6 harg6 hc x0 x1 x2 x3).2.1

/-- The result's staging buffer after a later point, the scratch at `xs`. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬atFirst i)
    (x0 : Vec F S10000x128 .f32) (x1 : Vec F S128x128 .f32) (x2 : Vec F S200x10000 .f32) (x3 : Vec F S200x10000 .f32) (xs : Vec F S10000x128 .f32) : Vec F S400x128 .f32 :=
  View.canon (runLater c i arg1 harg1 arg2 harg2 arg3 harg3 arg4 harg4 arg5 harg5 arg6 harg6 hc x0 x1 x2 x3 xs).1

/-- The two half-block stores tile the result's block; the one store of the projection tiles the scratch. -/
theorem cover_outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x128.size (by sl_kernel_rfl) y
theorem cover_scrFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y
theorem cover_outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬atFirst i)
    (x0 : Vec F S10000x128 .f32) (x1 : Vec F S128x128 .f32) (x2 : Vec F S200x10000 .f32) (x3 : Vec F S200x10000 .f32) (xs : Vec F S10000x128 .f32) (y : S400x128.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S200x128.size (by sl_kernel_rfl) y

/-! ## The projection the scratch carries, and the result's buffer point by point -/

/-- The first grid point. -/
def t0 : Fin cfg0.N := ⟨0, by rw [show cfg0.N = 25 from N_0]; decide⟩

/-- What the scratch holds after the first point and ever after: the first point's store, of the blocks there. -/
def proj (c : Dev nD) : Vec F S10000x128 .f32 :=
  scrFirst c (grid0.coords t0) (ms_x t0) (hs_x t0) (ms_w t0) (hs_w t0) (ms_lo t0) (hs_lo t0) (ms_hi t0) (hs_hi t0) (ms_out t0) (hs_out t0) scM (Memref.isWhole_whole _)
    ((atFirst_iff t0).mpr rfl) (iblk m c 0 t0) (iblk m c 1 t0) (iblk m c 2 t0) (iblk m c 3 t0)

/-- What the result's staging buffer holds after the body at point `t`: the case the point is in, run on the
    point's blocks, a later point over the projection. -/
def outAt (c : Dev nD) (t : Fin cfg0.N) : Vec F S400x128 .f32 :=
  if h : t.val = 0 then
    outFirst c (grid0.coords t) (ms_x t) (hs_x t) (ms_w t) (hs_w t) (ms_lo t) (hs_lo t) (ms_hi t) (hs_hi t) (ms_out t) (hs_out t) scM (Memref.isWhole_whole _)
      ((atFirst_iff t).mpr h) (iblk m c 0 t) (iblk m c 1 t) (iblk m c 2 t) (iblk m c 3 t)
  else
    outLater c (grid0.coords t) (ms_x t) (hs_x t) (ms_w t) (hs_w t) (ms_lo t) (hs_lo t) (ms_hi t) (hs_hi t) (ms_out t) (hs_out t) scM (Memref.isWhole_whole _)
      (fun h' => h ((atFirst_iff t).mp h')) (iblk m c 0 t) (iblk m c 1 t) (iblk m c 2 t) (iblk m c 3 t) (proj m c)

theorem outAt_first (c : Dev nD) (t : Fin cfg0.N) (h : t.val = 0) :
    outAt m c t = outFirst c (grid0.coords t) (ms_x t) (hs_x t) (ms_w t) (hs_w t) (ms_lo t) (hs_lo t) (ms_hi t) (hs_hi t) (ms_out t) (hs_out t) scM (Memref.isWhole_whole _)
      ((atFirst_iff t).mpr h) (iblk m c 0 t) (iblk m c 1 t) (iblk m c 2 t) (iblk m c 3 t) := dif_pos h
theorem outAt_later (c : Dev nD) (t : Fin cfg0.N) (h : ¬t.val = 0) :
    outAt m c t = outLater c (grid0.coords t) (ms_x t) (hs_x t) (ms_w t) (hs_w t) (ms_lo t) (hs_lo t) (ms_hi t) (hs_hi t) (ms_out t) (hs_out t) scM (Memref.isWhole_whole _)
      (fun h' => h ((atFirst_iff t).mp h')) (iblk m c 0 t) (iblk m c 1 t) (iblk m c 2 t) (iblk m c 3 t) (proj m c) := dif_neg h

/-- The region invariant before position `n`: before the first point the scratch at anything; afterwards at the
    projection. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (proj m c)

theorem PhiS_zero (c : Dev nD) (n : ℕ) (hz : n = 0) :
    PhiS m c n = Pipeline.scopedRest (Ix := Unit) (Name := ℕ) (U := UR sig nD τ) (Lvl := ℕ) (Val := Elt F) spec0 c := by subst hz; rfl
theorem PhiS_pos (c : Dev nD) (n : ℕ) (hz : n ≠ 0) : PhiS m c n = owns (c : Thread nD τ) scM fullShare (proj m c) := by
  cases n with
  | zero => exact absurd rfl hz
  | succ n => rfl

/-! ## The proof data -/

/-- The proof data on core `c`: the arrays as launched; after the body each input's buffer at its block and the
    result's at `outAt`; the invariant `PhiS`; nothing owed; the adjacency array's share halved between its two
    windows, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_lo (c : Dev nD) (t : Fin cfg0.N) : (dats m 0 c).after 2 t = iblk m c 2 t := by dsimp only [dats]
theorem after_hi (c : Dev nD) (t : Fin cfg0.N) : (dats m 0 c).after 3 t = iblk m c 3 t := by dsimp only [dats]
theorem after_out (c : Dev nD) (t : Fin cfg0.N) : (dats m 0 c).after 4 t = outAt m c t := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d
theorem before_lo (c : Dev nD) (t : Fin cfg0.N) (d) : (dats m 0 c).before 2 t d = iblk m c 2 t :=
  before_lo_of m (dats m 0 c) (A_eq m c 2) (after_lo m c) t d
theorem before_hi (c : Dev nD) (t : Fin cfg0.N) (d) : (dats m 0 c).before 3 t d = iblk m c 3 t :=
  before_hi_of m (dats m 0 c) (A_eq m c 3) (after_hi m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_x t) fullShare ((dats m 0 c).before 0 t d))
    ∗ (∃ d, owns (c : Thread nD τ) (ms_w t) fullShare ((dats m 0 c).before 1 t d))
    ∗ (∃ d, owns (c : Thread nD τ) (ms_lo t) fullShare ((dats m 0 c).before 2 t d))
    ∗ (∃ d, owns (c : Thread nD τ) (ms_hi t) fullShare ((dats m 0 c).before 3 t d))
    ∗ (∃ d, owns (c : Thread nD τ) (ms_out t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

set_option maxHeartbeats 4000000 in
/-- The body at any point: the inputs' buffers hold their blocks; the point is the first or a later one; the run
    of its case applies, handed the scratch at anything (first) or at the projection (later), and hands it back
    at the projection. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_lo, before_hi]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [leaves_eq m c 0 t, leaves_eq m c 1 t, leaves_eq m c 2 t, leaves_eq m c 3 t, leaves_eq m c 4 t,
    after_x, after_w, after_lo, after_hi, after_out]
  rw [Phi_castSucc m c t]
  by_cases h0 : t.val = 0
  · obtain rfl : t = t0 := Fin.ext h0
    rw [PhiS_zero m c _ h0, rest_eq, outAt_first m c t0 h0]
    unfold outFirst proj scrFirst
    iintro ⟨⟨%ds, HS⟩, Ho, ⟨%d0, H0⟩, ⟨%d1, H1⟩, ⟨%d2, H2⟩, ⟨%d3, H3⟩, ⟨%d4, H4⟩⟩
    iapply ((runFirst c (grid0.coords t0) _ _ _ _ _ _ _ _ _ _ _ _ ((atFirst_iff t0).mpr h0) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, ⟨%e4, H4⟩, ⟨%es, HS⟩⟩
    isplitl [HS]
    · unfold owns; iexists _; isplitr
      swap; · iexact HS
      ipureintro; exact View.read_writes_eq_canon _ _ _ (cover_scrFirst c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_eq_canon _ _ _ (cover_outFirst c _ _ _ _ _ _ _ _ _ _ _ _ _ _ _ _ _ _)
  · rw [PhiS_pos m c _ h0, outAt_later m c t h0]
    unfold outLater
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h' => h0 ((atFirst_iff t).mp h')) (iblk m c 0 t) (iblk m c 1 t) (iblk m c 2 t) (iblk m c 3 t) (proj m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_eq_canon _ _ _ (cover_outLater c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch's hand-overs -/

/-- What the launch hands the region — the scratch at anything — is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl, PhiS_zero m c 0 rfl]

/-- After the last point the invariant gives it back, the projection forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last, show cfg0.N = 25 from N_0]; decide), rest_eq]
  iintro HS
  iexists _; iexact HS

theorem share_x (c : Dev nD) : (dats m 0 c).share 0 = fullShare := rfl
theorem share_w (c : Dev nD) : (dats m 0 c).share 1 = fullShare := rfl
theorem share_lo (c : Dev nD) : (dats m 0 c).share 2 = fullShare.left := rfl
theorem share_hi (c : Dev nD) : (dats m 0 c).share 3 = fullShare.right := rfl
theorem share_out (c : Dev nD) : (dats m 0 c).share 4 = fullShare := rfl

/-- THE DEAL. The four buffers behind the five windows' arrays, each whole at the full share at the launch
    contents, are the windows' arrays at entry: x, W and the result each whole; the adjacency matrix split into its
    two half shares, one for the window on the even blocks of 200 rows, one for the window on the odd ones. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg2, main_arg1, main_v0] (by decide) (by decide), bigSep_W0]
  rw [show (bigSepL [main_arg0, main_arg2, main_arg1, main_v0] fun b => (((c : Thread nD τ).loc b) ↦{fullShare} V m c b : sProp 𝕄))
      = iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_v0) ↦{fullShare} V m c main_v0)) from rfl]
  rw [(arr_whole0 0).set_eq_univ, (arr_whole0 1).set_eq_univ, (arr_whole0 2).set_eq_univ, (arr_whole0 4).set_eq_univ,
    share_x, share_w, share_lo, share_hi, share_out]
  iintro ⟨H0, H2, H1, Hv⟩
  ihave H1' := (pointsTo_share (PosShare.mem_left_op_right fullShare)).1 $$ H1
  icases H1' with ⟨H1a, H1b⟩
  isplitl [H0]; · iexact H0
  isplitl [H2]; · iexact H2
  isplitl [H1a]; · iexact H1a
  isplitl [H1b]; · iexact H1b
  iexact Hv

/-! ## The run and the frame -/

set_option backward.isDefEq.respectTransparency.types false in
/-- For any values, from any memory with zero counters: every weakly fair execution of @main terminates, and
    every final state has every window's array at what the write-backs make of its entry contents. -/
theorem run_main : θ_run defs (onTc (τ := τ) (main (F := F))) (s₀ m ρ) (Pipeline.FramePost cfgs (dats m) 0 (V m)) :=
  Pipeline.SharedArrays.θ_run_frame_track cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- The run with every array named: the result at the proof data's final array, the three arguments unchanged
    (an input window's array is never written). -/
theorem run_named : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 4,
      ((h c).1 0).trans (((dats m 0 c).arrAt_in 0 rfl _).trans (A_eq m c 0)),
      ((h c).1 2).trans (((dats m 0 c).arrAt_in 2 rfl _).trans (A_eq m c 2)),
      ((h c).1 1).trans (((dats m 0 c).arrAt_in 1 rfl _).trans (A_eq m c 1))⟩) (run_main m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Gcn

end
-- ==== Proof.IdealPieces.lean ====
/-
  What the body's stores leave, named through the body's own arithmetic: the scratch after the first point is the
  projection payload of the feature and weight blocks; the result's block is the two half-block payloads — rows
  0…199 from the first adjacency block, rows 200…399 from the second — over the scratch's contents.
-/
import proofs.«173253_g84851373900264_cont_9to1_m_689_9_alg».proof.Proof.IdealFrame
import Idealize.ShloMosaic.Lib.Pipeline.Value

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem zero_off : (![0, 0] : Fin 2 → Nat) = fun _ => 0 := funext fun a => by fin_cases a <;> rfl

/-- The rectangles of the two half-block stores in the result's 400×128 block. -/
abbrev rLo : Rect S400x128 := Rect.unit (s := S400x128) ![0, 0] S200x128.size inb_S400x128_S200x128_0_0
abbrev rHi : Rect S400x128 := Rect.unit (s := S400x128) ![200, 0] S200x128.size inb_S400x128_S200x128_200_0

/-- After the first point the scratch holds the projection payload of the blocks of x and W. -/
theorem scrFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i) (x0 : Vec F S10000x128 .f32) (x1 : Vec F S128x128 .f32) (x2 : Vec F S200x10000 .f32) (x3 : Vec F S200x10000 .f32) :
    scrFirst c i arg1 harg1 arg2 harg2 arg3 harg3 arg4 harg4 arg5 harg5 arg6 harg6 hc x0 x1 x2 x3 = k0_pay1 x0 x1 := by
  unfold scrFirst runFirst
  dsimp only
  sl_unfold_words
  rw [View.canon_unit_zero zero_off]
  simp only [View.readAt_eq_ld, harg1.read_unread, harg2.read_unread, View.ld_unit_zero (S := S10000x128) zero_off, View.ld_unit_zero (S := S128x128) zero_off]

/-- After the first point the result's block is the two payloads over that projection. -/
theorem outFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : atFirst i) (x0 : Vec F S10000x128 .f32) (x1 : Vec F S128x128 .f32) (x2 : Vec F S200x10000 .f32) (x3 : Vec F S200x10000 .f32) :
    outFirst c i arg1 harg1 arg2 harg2 arg3 harg3 arg4 harg4 arg5 harg5 arg6 harg6 hc x0 x1 x2 x3
      = View.canon [⟨rHi, k0_pay3 (k0_pay1 x0 x1) x3⟩, ⟨rLo, k0_pay2 (k0_pay1 x0 x1) x2⟩] := by
  unfold outFirst runFirst
  dsimp only
  sl_unfold_words
  simp only [View.readAt_eq_ld, harg1.read_unread, harg2.read_unread, harg3.read_unread, harg4.read_unread, View.ld_unit_zero (S := S10000x128) zero_off, View.ld_unit_zero (S := S128x128) zero_off, View.ld_unit_zero (S := S200x10000) zero_off]
  rw [View.readCov_unit_zero _ zero_off]

/-- After a later point it is the two payloads over what the scratch held. -/
theorem outLater_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .f32) (harg6 : arg6.IsWhole) (hc : ¬atFirst i) (x0 : Vec F S10000x128 .f32) (x1 : Vec F S128x128 .f32) (x2 : Vec F S200x10000 .f32) (x3 : Vec F S200x10000 .f32) (xs : Vec F S10000x128 .f32) :
    outLater c i arg1 harg1 arg2 harg2 arg3 harg3 arg4 harg4 arg5 harg5 arg6 harg6 hc x0 x1 x2 x3 xs
      = View.canon [⟨rHi, k0_pay3 xs x3⟩, ⟨rLo, k0_pay2 xs x2⟩] := by
  unfold outLater runLater
  dsimp only
  simp only [View.readAt_eq_ld, harg3.read_unread, harg4.read_unread, harg6.read_unread, View.ld_unit_zero (S := S10000x128) zero_off, View.ld_unit_zero (S := S200x10000) zero_off]

end Cert.KernelIdeal.Gcn

end
-- ==== Proof.LibPlainDot.lean ====
/-
  A plain matrix product read at an entry, over the extended reals.

  The product of an [M, K] array with a [K, N] array into [M, N] — the left operand's second axis contracted with the
  right operand's first, no batch axes — has at (p, q) the value  Σ_k x(p, k) · w(k, q).  This holds for the device's
  product into the zero accumulator and for the host's product alike: at the ideal instance both are the exact finite
  sum over the contracted coordinate, and the contraction index of a one-axis contraction is that coordinate.
-/
import Idealize.ShloMosaic.Lib.ValueIdx
import Idealize.ShloMosaic.PureOps.Ideal.Laws

namespace Cert.LibPlainDot

open Idealize.ShloMosaic Idealize.ShloMosaic.ValueIdx

variable {M K N : ℕ}

/-- The left operand's row coordinate is the result's row coordinate. -/
theorem lhs_row (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction coordinate. -/
theorem rhs_row (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column coordinate. -/
theorem rhs_col (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- At the k-th contraction coordinate the left operand is read at (p, k). -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => exact lhs_row _ _
  | ⟨1, _⟩ => exact (lhs_col _ _).trans hk

/-- At the k-th contraction coordinate the right operand is read at (k, q). -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact (rhs_row _ _).trans hk
  | ⟨1, _⟩ => exact rhs_col _ _

/-- The device's plain product into the zero accumulator, at (p, q), is Σ_k x(p, k) · w(k, q). -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, x (ix2 p k) * w (ix2 k q) := by
  refine (Ideal.matmul_constant_zero_apply (DotDims.plain M K N) prec x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

/-- The host's plain product, at (p, q), is Σ_k x(p, k) · w(k, q). -/
theorem hostDot_apply {φ₁ φ₂ : FTy} (prec : Option ContractPrecision)
    (x : FVec Ideal ⟨2, ![M, K]⟩ φ₁) (w : FVec Ideal ⟨2, ![K, N]⟩ φ₂) (p : Fin M) (q : Fin N) :
    Host.dotGeneral (DotDims.plain M K N) prec x w (ix2 p q) = ∑ k : Fin K, x (ix2 p k) * w (ix2 k q) := by
  refine (Ideal.dotGeneral_apply (DotDims.plain M K N) prec .single x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

end Cert.LibPlainDot
-- ==== Proof.GcnSpec.lean ====
/-
  The graph-convolution layer as one function of its three arrays, entry by entry over the extended reals.

  With x a 10000×128 feature matrix, A a 10000×10000 adjacency matrix and W a 128×128 weight, the projection is
  S(k, j) = Σ_l x(k, l) · W(l, j) and the layer's result at (p, q) is  max(Σ_k A(p, k) · S(k, q), 0).
  Both programs compute it in exactly this grouping — the projection first, then one sum over the 10000 columns of
  row p — so no law of arithmetic is needed to join them, only this one reading of each side.
-/
import proofs.«173253_g84851373900264_cont_9to1_m_689_9_alg».proof.Proof.LibPlainDot

noncomputable section

namespace Cert.GcnSpec

open Idealize.ShloMosaic Idealize.ShloMosaic.ValueIdx

/-- The projection x·W at row `k`, column `j`. -/
def support (x : FVec Ideal ⟨2, ![10000, 128]⟩ .f32) (w : FVec Ideal ⟨2, ![128, 128]⟩ .f32) (k : Fin 10000) (j : Fin 128) : EReal :=
  ∑ l : Fin 128, x (ix2 k l) * w (ix2 l j)

/-- The layer's result at row `p`, column `q`: the adjacency row against the projection's column, clamped below at
    zero (the zero as the programs spell it: the word of all zero bits read as a float). -/
def entry (x : FVec Ideal ⟨2, ![10000, 128]⟩ .f32) (adj : FVec Ideal ⟨2, ![10000, 10000]⟩ .f32) (w : FVec Ideal ⟨2, ![128, 128]⟩ .f32)
    (p : Fin 10000) (q : Fin 128) : EReal :=
  max (∑ k : Fin 10000, adj (ix2 p k) * support x w k q) (Ideal.ofBits .f32 0x00000000#32)

/-- The layer's result as an array. -/
def G (x : FVec Ideal ⟨2, ![10000, 128]⟩ .f32) (adj : FVec Ideal ⟨2, ![10000, 10000]⟩ .f32) (w : FVec Ideal ⟨2, ![128, 128]⟩ .f32) :
    FVec Ideal ⟨2, ![10000, 128]⟩ .f32 :=
  fun i => entry x adj w ⟨(i 0).val, idx2_lt0 i⟩ ⟨(i 1).val, idx2_lt1 i⟩

theorem G_apply (x : FVec Ideal ⟨2, ![10000, 128]⟩ .f32) (adj : FVec Ideal ⟨2, ![10000, 10000]⟩ .f32) (w : FVec Ideal ⟨2, ![128, 128]⟩ .f32)
    (p : Fin 10000) (q : Fin 128) : G x adj w (ix2 p q) = entry x adj w p q := rfl

/-- A plain product of the feature matrix with the weight, device or host, IS the projection. -/
theorem matmul_support (prec : Option ContractPrecision) (x : FVec Ideal ⟨2, ![10000, 128]⟩ .f32) (w : FVec Ideal ⟨2, ![128, 128]⟩ .f32)
    (k : Fin 10000) (j : Fin 128) :
    matmul (DotDims.plain 10000 128 128) prec x w (constant (F := Ideal) ⟨2, ![10000, 128]⟩ .f32 0x00000000#32) (ix2 k j) = support x w k j :=
  Cert.LibPlainDot.matmul_zero_apply prec x w k j

theorem hostDot_support (prec : Option ContractPrecision) (x : FVec Ideal ⟨2, ![10000, 128]⟩ .f32) (w : FVec Ideal ⟨2, ![128, 128]⟩ .f32)
    (k : Fin 10000) (j : Fin 128) :
    Host.dotGeneral (DotDims.plain 10000 128 128) prec x w (ix2 k j) = support x w k j :=
  Cert.LibPlainDot.hostDot_apply prec x w k j

end Cert.GcnSpec

end
-- ==== Proof.IdealValue.lean ====
/-
  The idealized kernel computes the layer. At grid point t the result's 400-row block is rows 400t … 400t+399 of
  the layer: its first 200 rows come from the adjacency block of rows 400t … 400t+199, its last 200 from the block
  of rows 400t+200 … 400t+399, each row r of a block giving  max(Σ_k A(r, k) · S(k, q), 0)  against what the
  scratch holds, and the scratch holds the projection S = x·W from the first point on. The 25 blocks tile the
  10000 rows, so the final array is the layer everywhere.
-/
import proofs.«173253_g84851373900264_cont_9to1_m_689_9_alg».proof.Proof.IdealPieces
import proofs.«173253_g84851373900264_cont_9to1_m_689_9_alg».proof.Proof.GcnSpec

set_option maxRecDepth 16384

noncomputable section

namespace Cert.KernelIdeal.Gcn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GcnSpec

variable (m : (ℓ : Loc nD τ sig) → Buf (Elt Ideal) ℓ) (ρ : Dev nD → PrngReg)

/-! ## The body's arithmetic at an entry -/

/-- The projection payload at (k, j) is Σ_l x(k, l) · W(l, j). -/
theorem pay1_apply (x : Vec Ideal S10000x128 .f32) (w : Vec Ideal S128x128 .f32) (k : Fin 10000) (j : Fin 128) :
    k0_pay1 (F := Ideal) x w (ix2 k j) = support x w k j := by
  unfold k0_pay1
  refine (congrFun (shapeCast_self _ _) (ix2 k j)).trans ?_
  exact matmul_support none x w k j

/-- A half-block payload at (r, j): row r of the adjacency block against column j of the scratch, clamped at zero. -/
theorem pay2_apply (S : Vec Ideal S10000x128 .f32) (a : Vec Ideal S200x10000 .f32) (r : Fin 200) (j : Fin 128) :
    k0_pay2 (F := Ideal) S a (ix2 r j) = max (∑ k : Fin 10000, a (ix2 r k) * S (ix2 k j)) (Ideal.ofBits .f32 0x00000000#32) := by
  unfold k0_pay2
  refine congrArg (fun v => max v (Ideal.ofBits .f32 0x00000000#32)) ?_
  exact Cert.LibPlainDot.matmul_zero_apply (M := 200) (K := 10000) (N := 128) none a S r j
theorem pay3_apply (S : Vec Ideal S10000x128 .f32) (a : Vec Ideal S200x10000 .f32) (r : Fin 200) (j : Fin 128) :
    k0_pay3 (F := Ideal) S a (ix2 r j) = max (∑ k : Fin 10000, a (ix2 r k) * S (ix2 k j)) (Ideal.ofBits .f32 0x00000000#32) := by
  unfold k0_pay3
  refine congrArg (fun v => max v (Ideal.ofBits .f32 0x00000000#32)) ?_
  exact Cert.LibPlainDot.matmul_zero_apply (M := 200) (K := 10000) (N := 128) none a S r j

/-- The result's block at (p, q): the lower store where p < 200, the upper one (at row p − 200 of its block) above. -/
theorem block_apply (S : Vec Ideal S10000x128 .f32) (alo ahi : Vec Ideal S200x10000 .f32) (p : Fin 400) (q : Fin 128) :
    View.canon [(⟨rHi, k0_pay3 (F := Ideal) S ahi⟩ : View.Piece (Elt Ideal) S400x128 .f32), ⟨rLo, k0_pay2 (F := Ideal) S alo⟩] (ix2 p q)
      = max (∑ k : Fin 10000, (if h : p.val < 200 then alo (ix2 (⟨p.val, h⟩ : Fin 200) k)
            else ahi (ix2 (⟨p.val - 200, by have := p.isLt; omega⟩ : Fin 200) k)) * S (ix2 k q)) (Ideal.ofBits .f32 0x00000000#32) := by
  have hp : p.val < 400 := p.isLt
  by_cases h : p.val < 200
  · have hn : ix2 p q ∉ (rHi).set := by
      rw [Rect.mem_set_unit]
      intro hm
      have h200 : 200 ≤ p.val := (hm 0).1
      omega
    rw [View.canon_cons_of_not_mem (Val := Elt Ideal) (⟨rHi, k0_pay3 (F := Ideal) S ahi⟩ : View.Piece (Elt Ideal) S400x128 .f32)
      [⟨rLo, k0_pay2 (F := Ideal) S alo⟩] (y := ix2 p q) hn]
    have ej : ix2 p q = (rLo).emb (ix2 (⟨p.val, h⟩ : Fin 200) q) := by
      funext a; apply Fin.ext
      match a with
      | ⟨0, _⟩ => show p.val = 0 + 1 * p.val; omega
      | ⟨1, _⟩ => show q.val = 0 + 1 * q.val; omega
    rw [ej, View.canon_cons_emb]
    refine (pay2_apply S alo _ q).trans ?_
    simp only [dif_pos h]
  · have ej : ix2 p q = (rHi).emb (ix2 (⟨p.val - 200, by omega⟩ : Fin 200) q) := by
      funext a; apply Fin.ext
      match a with
      | ⟨0, _⟩ => show p.val = 200 + 1 * (p.val - 200); omega
      | ⟨1, _⟩ => show q.val = 0 + 1 * q.val; omega
    rw [ej, View.canon_cons_emb]
    refine (pay3_apply S ahi _ q).trans ?_
    simp only [dif_neg h]

/-! ## The windows' blocks as parts of the arrays -/

/-- The printed index maps, decided over the 25 points: x and W are whole at every point; the adjacency windows
    are at blocks 2t and 2t + 1 of 200 rows; the result at block t of 400 rows. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

theorem blk_x (c : Dev nD) (t : Fin cfg0.N) : iblk m c 0 t = V m c main_arg0 := by
  obtain ⟨e0, e1, -⟩ := idx_facts t
  funext y
  show V m c main_arg0 (((cfg0.win 0).blk t).view.emb y) = V m c main_arg0 y
  congr 1
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem blk_w (c : Dev nD) (t : Fin cfg0.N) : iblk m c 1 t = V m c main_arg2 := by
  obtain ⟨-, -, e0, e1, -⟩ := idx_facts t
  funext y
  show V m c main_arg2 (((cfg0.win 1).blk t).view.emb y) = V m c main_arg2 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Row r of the first adjacency block at point t is row 400t + r of the matrix; of the second, row 400t + 200 + r. -/
theorem blk_lo (c : Dev nD) (t : Fin cfg0.N) (r : Fin 200) (k : Fin 10000) (hr : 400 * t.val + r.val < 10000) :
    iblk m c 2 t (ix2 r k) = V m c main_arg1 (ix2 (⟨400 * t.val + r.val, hr⟩ : Fin 10000) k) := by
  obtain ⟨-, -, -, -, e0, e1, -⟩ := idx_facts t
  show V m c main_arg1 (((cfg0.win 2).blk t).view.emb (ix2 r k)) = _
  congr 1
  funext a; apply Fin.ext
  match a with
  | ⟨0, _⟩ => show win0_2.index t (0 : Fin 2) * 200 + 1 * r.val = 400 * t.val + r.val; omega
  | ⟨1, _⟩ => show win0_2.index t (1 : Fin 2) * 10000 + 1 * k.val = k.val; omega

theorem blk_hi (c : Dev nD) (t : Fin cfg0.N) (r : Fin 200) (k : Fin 10000) (hr : 400 * t.val + 200 + r.val < 10000) :
    iblk m c 3 t (ix2 r k) = V m c main_arg1 (ix2 (⟨400 * t.val + 200 + r.val, hr⟩ : Fin 10000) k) := by
  obtain ⟨-, -, -, -, -, -, e0, e1, -⟩ := idx_facts t
  show V m c main_arg1 (((cfg0.win 3).blk t).view.emb (ix2 r k)) = _
  congr 1
  funext a; apply Fin.ext
  match a with
  | ⟨0, _⟩ => show win0_3.index t (0 : Fin 2) * 200 + 1 * r.val = 400 * t.val + 200 + r.val; omega
  | ⟨1, _⟩ => show win0_3.index t (1 : Fin 2) * 10000 + 1 * k.val = k.val; omega

/-- The scratch's contents from the first point on are the projection of the argument arrays. -/
theorem proj_apply (c : Dev nD) (k : Fin 10000) (j : Fin 128) :
    proj m c (ix2 k j) = support (V m c main_arg0) (V m c main_arg2) k j := by
  unfold proj
  rw [scrFirst_eq, blk_x, blk_w]
  exact pay1_apply _ _ k j

/-! ## What each point writes back -/

/-- The result's block at point t over a scratch that holds the projection: rows 400t … 400t+399 of the layer. -/
theorem block_is_layer (c : Dev nD) (t : Fin cfg0.N) (S : Vec Ideal S10000x128 .f32)
    (hS : ∀ k j, S (ix2 k j) = support (V m c main_arg0) (V m c main_arg2) k j) (p : Fin 400) (q : Fin 128) (hr : 400 * t.val + p.val < 10000) :
    View.canon [(⟨rHi, k0_pay3 (F := Ideal) S (iblk m c 3 t)⟩ : View.Piece (Elt Ideal) S400x128 .f32), ⟨rLo, k0_pay2 (F := Ideal) S (iblk m c 2 t)⟩] (ix2 p q)
      = entry (V m c main_arg0) (V m c main_arg1) (V m c main_arg2) (⟨400 * t.val + p.val, hr⟩ : Fin 10000) q := by
  rw [block_apply]
  unfold entry
  refine congrArg (fun v => max v (Ideal.ofBits .f32 0x00000000#32)) ?_
  refine Finset.sum_congr rfl fun k _ => ?_
  rw [hS k q]
  refine congrArg (fun v => v * support (V m c main_arg0) (V m c main_arg2) k q) ?_
  by_cases h : p.val < 200
  · rw [dif_pos h, blk_lo m c t _ k (by show 400 * t.val + p.val < 10000; exact hr)]
  · rw [dif_neg h, blk_hi m c t _ k (by show 400 * t.val + 200 + (p.val - 200) < 10000; omega)]
    congr 2
    apply Fin.ext
    show 400 * t.val + 200 + (p.val - 200) = 400 * t.val + p.val
    omega

/-- WHAT POINT t WRITES BACK is block t of the layer of the argument arrays. -/
theorem flushed_eq (c : Dev nD) (t : Fin cfg0.N) :
    (dats m 0 c).flushed 4 t = ((cfg0.win 4).blk t).view.read (Elt Ideal) (G (V m c main_arg0) (V m c main_arg1) (V m c main_arg2)) := by
  show (cfg0.win 4).cut (grid0.coords t) ((dats m 0 c).after 4 t) = _
  rw [after_out]
  funext j
  obtain ⟨p, q, rfl⟩ : ∃ (p : Fin 400) (q : Fin 128), j = ix2 p q := ⟨j 0, j 1, eq_ix2 j⟩
  have hN : t.val < 25 := lt_of_lt_of_eq t.isLt (show cfg0.N = 25 from N_0)
  have hp : p.val < 400 := p.isLt
  have hr : 400 * t.val + p.val < 10000 := by omega
  have eidx : ((cfg0.win 4).blk t).view.emb (ix2 p q) = ix2 (⟨400 * t.val + p.val, hr⟩ : Fin 10000) q := by
    obtain ⟨-, -, -, -, -, -, -, -, e0, e1⟩ := idx_facts t
    funext a; apply Fin.ext
    match a with
    | ⟨0, _⟩ => show win0_4.index t (0 : Fin 2) * 400 + 1 * p.val = 400 * t.val + p.val; omega
    | ⟨1, _⟩ => show win0_4.index t (1 : Fin 2) * 128 + 1 * q.val = q.val; omega
  show outAt m c t (ix2 p q) = G (V m c main_arg0) (V m c main_arg1) (V m c main_arg2) (((cfg0.win 4).blk t).view.emb (ix2 p q))
  rw [eidx, G_apply]
  by_cases h0 : t.val = 0
  · rw [outAt_first m c t h0, outFirst_eq]
    exact block_is_layer m c t _ (fun k j => (pay1_apply _ _ k j).trans (by rw [blk_x, blk_w])) p q hr
  · rw [outAt_later m c t h0, outLater_eq]
    exact block_is_layer m c t _ (proj_apply m c) p q hr

/-! ## The cover, and the final array -/

/-- An index of the result array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Row r of the result lies in the block of point r / 400. -/
theorem cover (i : S10000x128.Idx) : ∃ t : Fin cfg0.N, (cfg0.win 4).flush t = true ∧ i ∈ ((cfg0.win 4).blk t).view.set := by
  have hi0 : (i 0).val < 10000 := idx2_lt0 i
  have hi1 : (i 1).val < 128 := idx2_lt1 i
  have hlt : (i 0).val / 400 < cfg0.N := by rw [show cfg0.N = 25 from N_0]; omega
  refine ⟨⟨(i 0).val / 400, hlt⟩, flush0_4 _, ?_⟩
  rw [mem_blk]
  obtain ⟨-, -, -, -, -, -, -, -, e0, e1⟩ := idx_facts ⟨(i 0).val / 400, hlt⟩
  have e0' : win0_4.index ⟨(i 0).val / 400, hlt⟩ (0 : Fin 2) = (i 0).val / 400 := e0
  intro a
  match a with
  | ⟨0, _⟩ => show win0_4.index ⟨(i 0).val / 400, hlt⟩ (0 : Fin 2) * 400 ≤ (i 0).val ∧ (i 0).val < win0_4.index ⟨(i 0).val / 400, hlt⟩ (0 : Fin 2) * 400 + 400; omega
  | ⟨1, _⟩ => show win0_4.index ⟨(i 0).val / 400, hlt⟩ (1 : Fin 2) * 128 ≤ (i 1).val ∧ (i 1).val < win0_4.index ⟨(i 0).val / 400, hlt⟩ (1 : Fin 2) * 128 + 128; omega

/-- THE RESULT ARRAY after the run is the layer of the argument arrays. -/
theorem final (c : Dev nD) : (dats m 0 c).arrAt 4 cfg0.N = G (V m c main_arg0) (V m c main_arg1) (V m c main_arg2) :=
  (dats m 0 c).arrAt_eq_of_cover 4 _ (fun t _ => flushed_eq m c t) (cover)

/-- The idealized kernel's run: the result at the layer of the arguments, the arguments unchanged. -/
theorem run_value : θ_run defs (onTc (τ := τ) (main (F := Ideal))) ⟨m, fun _ => 0, ρ⟩ (fun r => ∀ c : Dev nD,
      r.2.mem ((c.tc : Thread nD τ).loc main_v0) = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (run_named m ρ)

end Cert.KernelIdeal.Gcn

end
-- ==== Proof.RefIsLayer.lean ====
/-
  The reference program computes the layer: its two host products and its clamp at zero, read at an entry, are the
  specification's sums — the inner product the projection, the outer one the adjacency row against it.
-/
import proofs.«173253_g84851373900264_cont_9to1_m_689_9_alg».proof.Proof.Gen.ReferenceIdeal.Read
import proofs.«173253_g84851373900264_cont_9to1_m_689_9_alg».proof.Proof.GcnSpec

noncomputable section

namespace Cert.ReferenceIdeal.RefValue

open Cert.ReferenceIdeal Cert.ReferenceIdeal.Gen Idealize.ShloMosaic Idealize.ShloMosaic.ValueIdx Cert.GcnSpec

/-- The reference's result term is the layer, as arrays. -/
theorem result_eq (x0 : FVec Ideal S10000x128 .f32) (x1 : FVec Ideal S10000x10000 .f32) (x2 : FVec Ideal S128x128 .f32) :
    maximumf (Host.dotGeneral dot_S10000x10000_S10000x128_S10000x128_1_0_0_1_n_n none x1
        (Host.dotGeneral dot_S10000x128_S128x128_S10000x128_1_0_0_1_n_n none x0 x2))
      (broadcastInDim S10000x128 ![] bcast_S_S10000x128 (constant (F := Ideal) S_ .f32 0x00000000#32))
      = G x0 x1 x2 := by
  funext i
  obtain ⟨p, q, rfl⟩ : ∃ (p : Fin 10000) (q : Fin 128), i = ix2 p q := ⟨i 0, i 1, eq_ix2 i⟩
  rw [G_apply, maximumf_apply]
  unfold entry
  congr 1
  · refine (Cert.LibPlainDot.hostDot_apply (M := 10000) (K := 10000) (N := 128) none x1 _ p q).trans ?_
    exact Finset.sum_congr rfl fun k _ => by rw [show dot_S10000x128_S128x128_S10000x128_1_0_0_1_n_n = DotDims.plain 10000 128 128 from rfl, hostDot_support]

end Cert.ReferenceIdeal.RefValue

end
-- ==== Proof.lean ====
/-
  A graph-convolution layer,  out = max(A · (x · W), 0),  computed by a pipelined kernel over 25 blocks of 400 rows
  against its plain reference; the claim is the three frames, the (empty) idealization ledger, and the equality of
  the two idealized programs' results over the extended reals.

  The kernel reads the adjacency matrix A through TWO windows on the one array (the even and the odd blocks of 200
  rows), computes the projection x·W once, at the first grid point, into a scratch buffer it then only reads, and
  at every point writes one 400-row block of the result from the point's two adjacency blocks and the scratch.
  Its frame rests on three things: the array's share is halved between the two windows at the launch
  (Proof/LibSharedArrays.lean states the launch for such kernels once), the region invariant carries the scratch —
  at anything before the first point, at the projection afterwards — and the body is run in its two cases
  (Proof/IdealRuns.lean, Proof/IdealFrame.lean; Proof/BitsRuns.lean, Proof/BitsFrame.lean are the same proof for the
  word-level program, which is the same text). The reference's frame is its run with the result dropped.

  The value: at the ideal instance both programs compute, at (p, q),  max(Σ_k A(p,k) · Σ_l x(k,l) · W(l,q), 0)  in
  this very grouping — the device's product into a zero accumulator and the host's product are the same finite sum
  (Proof/LibPlainDot.lean), a block's row is the matrix's row, and the 25 blocks tile the 10000 rows
  (Proof/GcnSpec.lean, Proof/IdealPieces.lean, Proof/IdealValue.lean, Proof/RefIsLayer.lean). No law of arithmetic
  joins the two sides, so the inputs' finiteness is never used.
-/
import proofs.«173253_g84851373900264_cont_9to1_m_689_9_alg».proof.Defs
import proofs.«173253_g84851373900264_cont_9to1_m_689_9_alg».proof.Proof.Gen.Kernel
import proofs.«173253_g84851373900264_cont_9to1_m_689_9_alg».proof.Proof.Gen.KernelIdeal
import proofs.«173253_g84851373900264_cont_9to1_m_689_9_alg».proof.Proof.Gen.ReferenceIdeal
import proofs.«173253_g84851373900264_cont_9to1_m_689_9_alg».proof.Proof.Gen.Pre_finite_inputs
import proofs.«173253_g84851373900264_cont_9to1_m_689_9_alg».proof.Proof.Gen.ReferenceIdeal.Run
import proofs.«173253_g84851373900264_cont_9to1_m_689_9_alg».proof.Proof.Gen.ReferenceIdeal.Read
import proofs.«173253_g84851373900264_cont_9to1_m_689_9_alg».proof.Proof.BitsFrame
import proofs.«173253_g84851373900264_cont_9to1_m_689_9_alg».proof.Proof.IdealValue
import proofs.«173253_g84851373900264_cont_9to1_m_689_9_alg».proof.Proof.RefIsLayer
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gcn.frame m ρ

/-- So does its idealization. -/
theorem frame_kernelIdeal : Cert.frame_KernelIdeal := fun m ρ _ => Cert.KernelIdeal.Gcn.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: the ledger is empty. -/
theorem preserves : Cert.preserves_Kernel_KernelIdeal := trivial

/-- From memories agreeing on the arguments both idealized programs end with the layer of those arguments. -/
theorem algebraic : Cert.algebraic_KernelIdeal_ReferenceIdeal := by
  intro m ρ m' ρ' _ hagree
  refine ⟨_, Cert.KernelIdeal.Gcn.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
